-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S16x3 : Shape := ⟨2, ![16, 3]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S16x3 : S_.BroadcastsInDim S16x3 (![] : Fin 0 → Fin S16x3.rank)
  reducesTo_S16x3_S_d0_1 : S16x3.ReducesTo [0, 1] S_

variable [Facts]

def fn_part1 {F : FTy → Type} [FloatOps F] (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  main_v18

def fn {F : FTy → Type} [FloatOps F] (main_arg0 : FVec F S16x3x512x512 .f32) (main_arg1 : FVec F S16x3 .f32) (main_arg2 : FVec F S16x3 .f32) (main_arg3 : FVec F S16x3 .f32) (main_arg4 : IVec S16x3x512x512 32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3 .f32 := Host.absf main_arg1
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  let main_v14 : FVec F S16x3 .f32 := Host.absf main_arg3
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_v13 main_v16
-- ==== Kernel.lean ====
abbrev S16x3x512x512 : Shape := ⟨4, ![16, 3, 512, 512]⟩
abbrev S16x3 : Shape := ⟨2, ![16, 3]⟩
abbrev S16x3x1x1 : Shape := ⟨4, ![16, 3, 1, 1]⟩
abbrev S1x3x512x512 : Shape := ⟨4, ![1, 3, 512, 512]⟩
abbrev S1x3x1x1 : Shape := ⟨4, ![1, 3, 1, 1]⟩

abbrev nBuf : Space → Nat
  | .hbm => 9
  | .vmem => 12
  | .smem => 0
  | _ => 0

abbrev bufTy : (tb : Table) → Fin (tcTables nBuf tb) → BufTy
  | .hbm, ⟨0, _⟩ => ⟨S16x3x512x512, .f32⟩
  | .hbm, ⟨1, _⟩ => ⟨S16x3, .f32⟩
  | .hbm, ⟨2, _⟩ => ⟨S16x3, .f32⟩
  | .hbm, ⟨3, _⟩ => ⟨S16x3, .f32⟩
  | .hbm, ⟨4, _⟩ => ⟨S16x3x512x512, .i32⟩
  | .hbm, ⟨5, _⟩ => ⟨S16x3x1x1, .f32⟩
  | .hbm, ⟨6, _⟩ => ⟨S16x3x1x1, .f32⟩
  | .hbm, ⟨7, _⟩ => ⟨S16x3x1x1, .f32⟩
  | .hbm, ⟨8, _⟩ => ⟨S16x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .i32⟩
  | .local _ .vmem, ⟨3, _⟩ => ⟨S1x3x512x512, .i32⟩
  | .local _ .vmem, ⟨4, _⟩ => ⟨S1x3x1x1, .f32⟩
  | .local _ .vmem, ⟨5, _⟩ => ⟨S1x3x1x1, .f32⟩
  | .local _ .vmem, ⟨6, _⟩ => ⟨S1x3x1x1, .f32⟩
  | .local _ .vmem, ⟨7, _⟩ => ⟨S1x3x1x1, .f32⟩
  | .local _ .vmem, ⟨8, _⟩ => ⟨S1x3x1x1, .f32⟩
  | .local _ .vmem, ⟨9, _⟩ => ⟨S1x3x1x1, .f32⟩
  | .local _ .vmem, ⟨10, _⟩ => ⟨S1x3x512x512, .f32⟩
  | .local _ .vmem, ⟨11, _⟩ => ⟨S1x3x512x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x3_S16x3x1x1 : S16x3.ShapeCasts S16x3x1x1
  inb_S1x3x512x512_S1x3x512x512_0_0_0_0 : ∀ a, (![0, 0, 0, 0] : Fin 4 → Nat) a + S1x3x512x512.size a ≤ S1x3x512x512.size a
  h_S1x3x512x512 : 0 < S1x3x512x512.numel
  inb_S1x3x1x1_S1x3x1x1_0_0_0_0 : ∀ a, (![0, 0, 0, 0] : Fin 4 → Nat) a + S1x3x1x1.size a ≤ S1x3x1x1.size a
  h_S1x3x1x1 : 0 < S1x3x1x1.numel
  shapeCasts_S1x3x1x1_S1x3x1x1 : S1x3x1x1.ShapeCasts S1x3x1x1
  broadcasts_S1x3x1x1_S1x3x512x512 : S1x3x1x1.Broadcasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .i32 = 32 ∨ (Rect.block (s := S16x3x512x512) S1x3x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1x1.size a ≤ S16x3x1x1.size a
  hwx0_2 : ∀ i : grid0.Coords, EltTy.bits .f32 = 32 ∨ (Rect.block (s := S16x3x1x1) S1x3x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1x1.size a ≤ S16x3x1x1.size a
  hwx0_3 : ∀ i : grid0.Coords, EltTy.bits .f32 = 32 ∨ (Rect.block (s := S16x3x1x1) S1x3x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x1x1.size a ≤ S16x3x1x1.size a
  hwx0_4 : ∀ i : grid0.Coords, EltTy.bits .f32 = 32 ∨ (Rect.block (s := S16x3x1x1) S1x3x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x512x512.size a ≤ S16x3x512x512.size a
  hwx0_5 : ∀ i : grid0.Coords, EltTy.bits .f32 = 32 ∨ (Rect.block (s := S16x3x512x512) S1x3x512x512.size (cc0_transform_5 i) (hinb0_5 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x3x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x3x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x3 : Shape := ⟨2, ![16, 3]⟩
abbrev S16x3x1x1 : Shape := ⟨4, ![16, 3, 1, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3, .f32⟩
  | .hbm, ⟨2, _⟩ => ⟨S16x3, .f32⟩
  | .hbm, ⟨3, _⟩ => ⟨S16x3, .f32⟩
  | .hbm, ⟨4, _⟩ => ⟨S16x3x512x512, .i32⟩
  | .hbm, ⟨5, _⟩ => ⟨S16x3x1x1, .f32⟩
  | .hbm, ⟨6, _⟩ => ⟨S16x3x512x512, .f32⟩
  | .hbm, ⟨7, _⟩ => ⟨S16x3x512x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x3x512x512, .f32⟩
  | .hbm, ⟨12, _⟩ => ⟨S16x3x512x512, .f32⟩
  | .hbm, ⟨13, _⟩ => ⟨S_, .f32⟩
  | .hbm, ⟨14, _⟩ => ⟨S16x3x512x512, .f32⟩
  | .hbm, ⟨15, _⟩ => ⟨S16x3x512x512, .f32⟩
  | .hbm, ⟨16, _⟩ => ⟨S_, .i32⟩
  | .hbm, ⟨17, _⟩ => ⟨S16x3x512x512, .i32⟩
  | .hbm, ⟨18, _⟩ => ⟨S16x3x512x512, .i1⟩
  | .hbm, ⟨19, _⟩ => ⟨S16x3x1x1, .f32⟩
  | .hbm, ⟨20, _⟩ => ⟨S16x3x1x1, .f32⟩
  | .hbm, ⟨21, _⟩ => ⟨S16x3x512x512, .f32⟩
  | .hbm, ⟨22, _⟩ => ⟨S16x3x512x512, .f32⟩
  | .hbm, ⟨23, _⟩ => ⟨S16x3x512x512, .f32⟩
  | .hbm, ⟨24, _⟩ => ⟨S16x3x512x512, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩

abbrev nD : Nat := 1
abbrev τ : Topo := Topo.v7x

variable {F : FTy → Type} [FloatOps F]

class Facts₀ : Prop where
  bcast_S16x3_S16x3x1x1_0_1 : S16x3.BroadcastsInDim S16x3x1x1 (![0, 1] : Fin 2 → Fin S16x3x1x1.rank)
  bcast_S16x3x1x1_S16x3x512x512_0_1_2_3 : S16x3x1x1.BroadcastsInDim S16x3x512x512 (![0, 1, 2, 3] : Fin 4 → Fin S16x3x512x512.rank)
  bcast_S_S16x3x512x512 : S_.BroadcastsInDim S16x3x512x512 (![] : Fin 0 → Fin S16x3x512x512.rank)

variable [Facts₀]

class Facts : Prop extends Facts₀ where

variable [Facts]
-- ==== Proof.LibPow.lean ====
/-
  Two general facts about the extended reals at the ideal instance, with no program in sight.
  (1) Clipping any extended real between a positive real and a real leaves a positive real: the result is at least the
  lower bound, so above `-∞` and above zero, and at most the upper bound, so below `+∞`.
  (2) For a positive real base `r` the extended-real power `r ^ g` is `exp (g · log r)` for EVERY extended-real exponent
  `g`: for a real `g` this is the definition of the real power of a positive base, and at `g = ±∞` both sides are `0`, `1`
  or `+∞` according to whether `r` is below, at or above `1` (the sign of `log r` decides the product with the infinity,
  and `exp` sends `-∞` to `0`, `0` to `1`, `+∞` to itself).
-/
import Idealize.ShloMosaic.PureOps.Ideal

noncomputable section

namespace Cert.LibPow

open Idealize.ShloMosaic

/-- Clipping any extended real between a positive real and a real leaves a positive real. -/
theorem clip_pos_real {a b : ℝ} (ha : 0 < a) (hb : 0 < b) (x : EReal) :
    ∃ r : ℝ, 0 < r ∧ min (b : EReal) (max (a : EReal) x) = (r : EReal) := by
  have hpos : (0 : EReal) < min (b : EReal) (max (a : EReal) x) :=
    lt_min (EReal.coe_pos.mpr hb) (lt_of_lt_of_le (EReal.coe_pos.mpr ha) (le_max_left _ _))
  have htop : min (b : EReal) (max (a : EReal) x) ≠ ⊤ :=
    ne_top_of_le_ne_top (EReal.coe_ne_top b) (min_le_left _ _)
  have hbot : min (b : EReal) (max (a : EReal) x) ≠ ⊥ := ne_of_gt (lt_trans EReal.bot_lt_zero hpos)
  refine ⟨(min (b : EReal) (max (a : EReal) x)).toReal, ?_, (EReal.coe_toReal htop hbot).symm⟩
  have := hpos
  rw [← EReal.coe_toReal htop hbot] at this
  exact EReal.coe_pos.mp this

/-- For a positive real base the extended-real power is the exponential of the exponent times the logarithm, at every
    extended-real exponent. -/
theorem pow_eq_exp_mul_log (r : ℝ) (hr : 0 < r) (g : EReal) :
    Ideal.pow (r : EReal) g = Ideal.exp (g * Ideal.log (r : EReal)) := by
  rw [Ideal.log_coe, if_neg (not_le.mpr hr)]
  induction g using EReal.rec with
  | bot =>
    rw [Ideal.pow_coe_bot, if_neg (not_lt.mpr hr.le)]
    rcases lt_trichotomy r 1 with h | h | h
    · rw [if_neg (not_lt.mpr h.le), if_neg h.ne, EReal.bot_mul_coe_of_neg (Real.log_neg hr h), Ideal.exp_top]
    · subst h
      rw [if_neg (lt_irrefl _), if_pos rfl, Real.log_one, EReal.coe_zero, mul_zero]
      exact (congrArg (fun z : ℝ => (z : EReal)) Real.exp_zero).symm
    · rw [if_pos h, EReal.bot_mul_coe_of_pos (Real.log_pos h), Ideal.exp_bot]
  | top =>
    rw [Ideal.pow_coe_top, if_neg (not_lt.mpr hr.le)]
    rcases lt_trichotomy r 1 with h | h | h
    · rw [if_neg (not_lt.mpr h.le), if_neg h.ne, EReal.top_mul_coe_of_neg (Real.log_neg hr h), Ideal.exp_bot]
    · subst h
      rw [if_neg (lt_irrefl _), if_pos rfl, Real.log_one, EReal.coe_zero, mul_zero]
      exact (congrArg (fun z : ℝ => (z : EReal)) Real.exp_zero).symm
    · rw [if_pos h, EReal.top_mul_coe_of_pos (Real.log_pos h), Ideal.exp_top]
  | coe y =>
    rw [Ideal.pow_coe_coe, ← EReal.coe_mul, Ideal.exp_coe]
    congr 1
    show r ^ y = Real.exp (y * Real.log r)
    rw [Real.rpow_def_of_pos hr, mul_comm]

end Cert.LibPow

end
-- ==== Proof.PowLaw.lean ====
/-
  The scalar law that joins the two programs. One side raises a clipped product to a power; the other takes the
  exponential of the exponent times the logarithm of the same clipped product. The two clip bounds are the
  single-precision patterns of `1e-8` and of `1`, both positive reals, so the clipped value is a positive real whatever
  extended real went in, and the general power law for a positive real base applies at every extended-real exponent.
-/
import Idealize.ShloMosaic.PureOps.Ideal
import proofs.«125441_j335007449248_2_alg».proof.Proof.LibPow

noncomputable section

namespace Cert.PowLaw

open Idealize.ShloMosaic

/-- The lower clip bound: the single-precision pattern nearest to `1e-8` denotes the positive real `11258999 · 2⁻⁵⁰`. -/
theorem lower_bound : ∃ a : ℝ, 0 < a ∧ Ideal.ofBits .f32 0x322BCC77#32 = (a : EReal) := by
  refine ⟨(11258999 : ℝ) * (2 : ℝ) ^ (-50 : ℤ), by positivity, ?_⟩
  simp [Ideal.ofBits, Ideal.ieee, -EReal.coe_mul]

/-- The upper clip bound: the pattern of `1.0` denotes `1`. -/
theorem upper_bound : Ideal.ofBits .f32 0x3F800000#32 = ((1 : ℝ) : EReal) := by
  simp [Ideal.ofBits, Ideal.ieee, -EReal.coe_mul]
  norm_num

/-- The clip of the two programs, between the two literal bounds, leaves a positive real. -/
theorem clip_pos (x : EReal) :
    ∃ r : ℝ, 0 < r ∧ min (Ideal.ofBits .f32 0x3F800000#32) (max (Ideal.ofBits .f32 0x322BCC77#32) x) = (r : EReal) := by
  obtain ⟨a, ha, ea⟩ := lower_bound
  rw [ea, upper_bound]
  exact Cert.LibPow.clip_pos_real ha one_pos x

/-- The law as the two programs meet it: the power of the clipped value is the exponential of the exponent times the
    logarithm of the clipped value, for every extended-real argument of the clip and every extended-real exponent. -/
theorem pow_clip (x g : EReal) :
    Ideal.pow (min (Ideal.ofBits .f32 0x3F800000#32) (max (Ideal.ofBits .f32 0x322BCC77#32) x)) g
      = Ideal.exp (g * Ideal.log (min (Ideal.ofBits .f32 0x3F800000#32) (max (Ideal.ofBits .f32 0x322BCC77#32) x))) := by
  obtain ⟨r, hr, e⟩ := clip_pos x
  rw [e]
  exact Cert.LibPow.pow_eq_exp_mul_log r hr g

end Cert.PowLaw

end
-- ==== Proof.Spec.lean ====
/-
  What both programs compute, as ONE function of the argument arrays, pixel by pixel. The arrays are an image stack
  `low` and an integer mask of shape [16, 3, 512, 512] and three tables `g1`, `g2`, `c` of shape [16, 3], one entry per
  (image, channel). At the pixel `i = (b, ch, y, x)` the colour-corrected value is the product `low i · c (b, ch)` clipped
  between the two literal bounds, the exponent is `g1 (b, ch)` where the mask is zero and `g2 (b, ch)` elsewhere, and the
  result is the clipped value raised to that exponent. The kernel spells the power as `exp (exponent · log value)`, the
  reference as the power itself; the scalar law of the sibling module says these are one extended real.
-/
import Idealize.ShloMosaic.PureOps.Ideal
import proofs.«125441_j335007449248_2_alg».proof.Proof.PowLaw

noncomputable section

namespace Cert.GammaSpec

open Idealize.ShloMosaic

/-- The shape of the image stack, of the mask and of the result. -/
abbrev Pix : Shape := ⟨4, ![16, 3, 512, 512]⟩
/-- The shape of the three per-(image, channel) tables. -/
abbrev Chan : Shape := ⟨2, ![16, 3]⟩

/-- The (image, channel) pair a pixel lies under: its first two coordinates. -/
abbrev chanOf (i : Pix.Idx) : Chan.Idx := fun a => match a with
  | ⟨0, _⟩ => ⟨(i 0).val, (i 0).isLt⟩
  | ⟨1, _⟩ => ⟨(i 1).val, (i 1).isLt⟩

/-- The product of a pixel with its channel's colour coefficient, clipped between the two literal bounds. -/
def clipped (lowv cv : EReal) : EReal :=
  min (Ideal.ofBits .f32 0x3F800000#32) (max (Ideal.ofBits .f32 0x322BCC77#32) (lowv * cv))

/-- The exponent of a pixel: the first table's entry where the mask word is zero, the second's elsewhere. -/
def exponent (g1v g2v : EReal) (maskv : BitVec 32) : EReal :=
  Scalar.select (IntOp.cmpi .eq maskv 0#32) g1v g2v

/-- One pixel in the kernel's spelling: the exponential of the exponent times the logarithm of the clipped value. -/
def pixExp (lowv cv g1v g2v : EReal) (maskv : BitVec 32) : EReal :=
  Ideal.exp (exponent g1v g2v maskv * Ideal.log (clipped lowv cv))

/-- One pixel in the reference's spelling: the clipped value to the power of the exponent. -/
def pixPow (lowv cv g1v g2v : EReal) (maskv : BitVec 32) : EReal :=
  Ideal.pow (clipped lowv cv) (exponent g1v g2v maskv)

/-- The two spellings agree at every extended real: the clipped value is a positive real. -/
theorem pixPow_eq_pixExp (lowv cv g1v g2v : EReal) (maskv : BitVec 32) :
    pixPow lowv cv g1v g2v maskv = pixExp lowv cv g1v g2v maskv :=
  Cert.PowLaw.pow_clip _ _

/-- The result array as one function of the five argument arrays, in the kernel's spelling. -/
def gammaArr (low : Pix.Idx → EReal) (g1 g2 c : Chan.Idx → EReal) (mask : Pix.Idx → BitVec 32) : Pix.Idx → EReal :=
  fun i => pixExp (low i) (c (chanOf i)) (g1 (chanOf i)) (g2 (chanOf i)) (mask i)

end Cert.GammaSpec

end
-- ==== Proof.KernelValue.lean ====
/-
  The kernel, read pixel by pixel. The grid has one point per image: point `t` stages image `t` of the stack and of the
  mask, and row `t` of each of the three tables (which the host has re-laid from [16, 3] to [16, 3, 1, 1] before the
  launch), and writes image `t` of the result. Inside a block the body broadcasts each table entry over its channel's
  pixels, so the value stored at the block index `j = (0, ch, y, x)` depends on the stack and the mask at `j` and on the
  tables at channel `ch`. Read through the blocks' positions this is the specification at the array index `(t, ch, y, x)`;
  the sixteen blocks tile the result array, so after the run the array is the specification everywhere.
-/
import proofs.«125441_j335007449248_2_alg».proof.Proof.Gen.KernelIdeal.Value
import proofs.«125441_j335007449248_2_alg».proof.Proof.Spec
import Idealize.ShloMosaic.Lib.Pipeline.Value
import Idealize.ShloMosaic.Lib.StableHlo.Run

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.Pipeline (Dat)
open Cert.GammaSpec

variable (m : (ℓ : Loc nD τ sig) → Buf (Elt Ideal) ℓ) (ρ : Dev nD → PrngReg)

/-! ## The tables as the region finds them -/

/-- The host re-lays the first exponent table to [16, 3, 1, 1] before the launch. -/
theorem V_g1 (c : Dev nD) : (V m c main_v0 : S16x3x1x1.Idx → EReal)
    = shapeCast S16x3x1x1 (m ((c : Thread nD τ).loc main_arg1) : S16x3.Idx → EReal) shapeCasts_S16x3_S16x3x1x1 := by
  dsimp only [Gen.V, Gen.hostOps0]
  after_results
  rfl

/-- The second exponent table likewise. -/
theorem V_g2 (c : Dev nD) : (V m c main_v1 : S16x3x1x1.Idx → EReal)
    = shapeCast S16x3x1x1 (m ((c : Thread nD τ).loc main_arg2) : S16x3.Idx → EReal) shapeCasts_S16x3_S16x3x1x1 := by
  dsimp only [Gen.V, Gen.hostOps0]
  after_results
  rfl

/-- The colour table likewise. -/
theorem V_c (c : Dev nD) : (V m c main_v2 : S16x3x1x1.Idx → EReal)
    = shapeCast S16x3x1x1 (m ((c : Thread nD τ).loc main_arg3) : S16x3.Idx → EReal) shapeCasts_S16x3_S16x3x1x1 := by
  dsimp only [Gen.V, Gen.hostOps0]
  after_results
  rfl

/-- A re-laid table at `(a, b, 0, 0)` is the table at `(a, b)`: the two indices have the same row-major position. -/
theorem relaid_apply (x : S16x3.Idx → EReal) (k : S16x3x1x1.Idx) (p : S16x3.Idx)
    (h0 : (p 0).val = (k 0).val) (h1 : (p 1).val = (k 1).val) :
    shapeCast S16x3x1x1 x shapeCasts_S16x3_S16x3x1x1 k = x p := by
  refine shapeCast_apply x _ k p ?_
  rw [Shape.rowMajor_val_two, Shape.rowMajor_val_four]
  have h2 : (k 2).val < 1 := (k 2).isLt
  have h3 : (k 3).val < 1 := (k 3).isLt
  show (p 0).val * 3 + (p 1).val = (((k 0).val * 3 + (k 1).val) * 1 + (k 2).val) * 1 + (k 3).val
  omega

/-! ## What the body leaves in a block -/

theorem hz : (![0, 0, 0, 0] : Fin 4 → Nat) = fun _ => 0 := funext fun a => by fin_cases a <;> rfl

/-- The body's stored block at the block index `j`: the specification's pixel of the stack and mask blocks at `j` and of
    the table blocks at `j`'s channel. -/
theorem out_apply (x0 : Vec Ideal S1x3x512x512 .f32) (x1 : Vec Ideal S1x3x512x512 .i32) (x2 x3 x4 : Vec Ideal S1x3x1x1 .f32)
    (j : S1x3x512x512.Idx) :
    out0_5 x0 x1 x2 x3 x4 j = pixExp (x0 j) (x2 (ix5_4 j)) (x3 (ix5_1 j)) (x4 (ix5_2 j)) (x1 j) := by
  unfold out0_5
  rw [Value.canon5_eq]
  simp only [View.ld_unit_zero (S := S1x3x512x512) hz, View.ld_unit_zero (S := S1x3x1x1) hz]
  have e0 : ix5_0 j = j := by
    funext a; apply Fin.ext
    have hj0 : (j 0).val < 1 := (j 0).isLt
    match a with | ⟨0, _⟩ => show 0 = (j 0).val; omega | ⟨1, _⟩ => rfl | ⟨2, _⟩ => rfl | ⟨3, _⟩ => rfl
  have e3 : ix5_3 j = j := by
    funext a; apply Fin.ext
    have hj0 : (j 0).val < 1 := (j 0).isLt
    match a with | ⟨0, _⟩ => show 0 = (j 0).val; omega | ⟨1, _⟩ => rfl | ⟨2, _⟩ => rfl | ⟨3, _⟩ => rfl
  show Ideal.exp (Scalar.select (IntOp.cmpi .eq (x1 (ix5_0 j)) 0#32) (x3 (ix5_1 j)) (x4 (ix5_2 j)) * Ideal.log (min (Ideal.ofBits .f32 0x3F800000#32) (max (Ideal.ofBits .f32 0x322BCC77#32) (x0 (ix5_3 j) * x2 (ix5_4 j))))) = _
  rw [e0, e3]
  rfl

/-! ## From the blocks to the array -/

/-- The printed index maps, decided over the sixteen points: every window's block at point `t` is block `(t, 0, 0, 0)`. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

/-- The array index of the block index `j` of image `t`. -/
abbrev pixOf (t : Fin cfg0.N) (j : S1x3x512x512.Idx) : S16x3x512x512.Idx := fun a => match a with
  | ⟨0, _⟩ => ⟨t.val, by have ht := t.isLt; have hN : cfg0.N = 16 := N_0; show t.val < 16; omega⟩
  | ⟨1, _⟩ => ⟨(j 1).val, (j 1).isLt⟩
  | ⟨2, _⟩ => ⟨(j 2).val, (j 2).isLt⟩
  | ⟨3, _⟩ => ⟨(j 3).val, (j 3).isLt⟩

/-- The result window's block `t` sits at image `t`. -/
theorem emb_out (t : Fin cfg0.N) (j : S1x3x512x512.Idx) : ((cfg0.win 5).blk t).view.emb j = pixOf t j := by
  obtain ⟨-, -, -, -, -, e0, e1, e2, e3⟩ := idx_facts t
  have hj0 : (j 0).val < 1 := (j 0).isLt
  funext a; apply Fin.ext
  match a with
  | ⟨0, _⟩ => show win0_5.index t (0 : Fin 4) * 1 + 1 * (j 0).val = t.val; omega
  | ⟨1, _⟩ => show win0_5.index t (1 : Fin 4) * 3 + 1 * (j 1).val = (j 1).val; omega
  | ⟨2, _⟩ => show win0_5.index t (2 : Fin 4) * 512 + 1 * (j 2).val = (j 2).val; omega
  | ⟨3, _⟩ => show win0_5.index t (3 : Fin 4) * 512 + 1 * (j 3).val = (j 3).val; omega

/-- The image stack's block `t` at `j` is the stack at image `t`. -/
theorem low_blk (c : Dev nD) (t : Fin cfg0.N) (j : S1x3x512x512.Idx) :
    (iblk m c 0 t : Vec Ideal S1x3x512x512 .f32) j = (m ((c : Thread nD τ).loc main_arg0) : S16x3x512x512.Idx → EReal) (pixOf t j) := by
  obtain ⟨⟨e0, e1, e2, e3⟩, -⟩ := idx_facts t
  have hj0 : (j 0).val < 1 := (j 0).isLt
  show V m c main_arg0 (((cfg0.win 0).blk t).view.emb j) = _
  rw [V_main_arg0]
  refine congrArg (m ((c : Thread nD τ).loc main_arg0) : S16x3x512x512.Idx → EReal) (funext fun a => Fin.ext ?_)
  match a with
  | ⟨0, _⟩ => show win0_0.index t (0 : Fin 4) * 1 + 1 * (j 0).val = t.val; omega
  | ⟨1, _⟩ => show win0_0.index t (1 : Fin 4) * 3 + 1 * (j 1).val = (j 1).val; omega
  | ⟨2, _⟩ => show win0_0.index t (2 : Fin 4) * 512 + 1 * (j 2).val = (j 2).val; omega
  | ⟨3, _⟩ => show win0_0.index t (3 : Fin 4) * 512 + 1 * (j 3).val = (j 3).val; omega

/-- The mask's block `t` at `j` is the mask at image `t`. -/
theorem mask_blk (c : Dev nD) (t : Fin cfg0.N) (j : S1x3x512x512.Idx) :
    (iblk m c 1 t : Vec Ideal S1x3x512x512 .i32) j = (m ((c : Thread nD τ).loc main_arg4) : S16x3x512x512.Idx → BitVec 32) (pixOf t j) := by
  obtain ⟨-, ⟨e0, e1, e2, e3⟩, -⟩ := idx_facts t
  have hj0 : (j 0).val < 1 := (j 0).isLt
  show V m c main_arg4 (((cfg0.win 1).blk t).view.emb j) = _
  rw [V_main_arg4]
  refine congrArg (m ((c : Thread nD τ).loc main_arg4) : S16x3x512x512.Idx → BitVec 32) (funext fun a => Fin.ext ?_)
  match a with
  | ⟨0, _⟩ => show win0_1.index t (0 : Fin 4) * 1 + 1 * (j 0).val = t.val; omega
  | ⟨1, _⟩ => show win0_1.index t (1 : Fin 4) * 3 + 1 * (j 1).val = (j 1).val; omega
  | ⟨2, _⟩ => show win0_1.index t (2 : Fin 4) * 512 + 1 * (j 2).val = (j 2).val; omega
  | ⟨3, _⟩ => show win0_1.index t (3 : Fin 4) * 512 + 1 * (j 3).val = (j 3).val; omega

/-- The colour table's block `t` at a block index of channel `ch` is the table at `(t, ch)`. -/
theorem c_blk (c : Dev nD) (t : Fin cfg0.N) (k : S1x3x1x1.Idx) (p : S16x3.Idx) (h0 : (p 0).val = t.val) (h1 : (p 1).val = (k 1).val) :
    (iblk m c 2 t : Vec Ideal S1x3x1x1 .f32) k = (m ((c : Thread nD τ).loc main_arg3) : S16x3.Idx → EReal) p := by
  obtain ⟨-, -, ⟨e0, e1, e2, e3⟩, -⟩ := idx_facts t
  have hk0 : (k 0).val < 1 := (k 0).isLt
  show (V m c main_v2 : S16x3x1x1.Idx → EReal) (((cfg0.win 2).blk t).view.emb k) = _
  rw [V_c]
  refine relaid_apply _ _ p ?_ ?_
  · show (p 0).val = win0_2.index t (0 : Fin 4) * 1 + 1 * (k 0).val; omega
  · show (p 1).val = win0_2.index t (1 : Fin 4) * 3 + 1 * (k 1).val; omega

/-- The first exponent table's block likewise. -/
theorem g1_blk (c : Dev nD) (t : Fin cfg0.N) (k : S1x3x1x1.Idx) (p : S16x3.Idx) (h0 : (p 0).val = t.val) (h1 : (p 1).val = (k 1).val) :
    (iblk m c 3 t : Vec Ideal S1x3x1x1 .f32) k = (m ((c : Thread nD τ).loc main_arg1) : S16x3.Idx → EReal) p := by
  obtain ⟨-, -, -, ⟨e0, e1, e2, e3⟩, -⟩ := idx_facts t
  have hk0 : (k 0).val < 1 := (k 0).isLt
  show (V m c main_v0 : S16x3x1x1.Idx → EReal) (((cfg0.win 3).blk t).view.emb k) = _
  rw [V_g1]
  refine relaid_apply _ _ p ?_ ?_
  · show (p 0).val = win0_3.index t (0 : Fin 4) * 1 + 1 * (k 0).val; omega
  · show (p 1).val = win0_3.index t (1 : Fin 4) * 3 + 1 * (k 1).val; omega

/-- The second exponent table's block likewise. -/
theorem g2_blk (c : Dev nD) (t : Fin cfg0.N) (k : S1x3x1x1.Idx) (p : S16x3.Idx) (h0 : (p 0).val = t.val) (h1 : (p 1).val = (k 1).val) :
    (iblk m c 4 t : Vec Ideal S1x3x1x1 .f32) k = (m ((c : Thread nD τ).loc main_arg2) : S16x3.Idx → EReal) p := by
  obtain ⟨-, -, -, -, ⟨e0, e1, e2, e3⟩, -⟩ := idx_facts t
  have hk0 : (k 0).val < 1 := (k 0).isLt
  show (V m c main_v1 : S16x3x1x1.Idx → EReal) (((cfg0.win 4).blk t).view.emb k) = _
  rw [V_g2]
  refine relaid_apply _ _ p ?_ ?_
  · show (p 0).val = win0_4.index t (0 : Fin 4) * 1 + 1 * (k 0).val; omega
  · show (p 1).val = win0_4.index t (1 : Fin 4) * 3 + 1 * (k 1).val; omega

/-- The specification of the argument arrays as launched. -/
abbrev spec (c : Dev nD) : S16x3x512x512.Idx → EReal :=
  gammaArr (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is image `t` of the specification. -/
theorem flushed_eq (c : Dev nD) (t : Fin cfg0.N) :
    (dats m 0 c).flushed 5 t = ((cfg0.win 5).blk t).view.read (Elt Ideal) (spec m c) := by
  rw [Value.flushed5]
  funext j
  show out0_5 (iblk m c 0 t) (iblk m c 1 t) (iblk m c 2 t) (iblk m c 3 t) (iblk m c 4 t) j = spec m c (((cfg0.win 5).blk t).view.emb j)
  rw [out_apply, emb_out, low_blk, mask_blk,
    c_blk m c t (ix5_4 j) (chanOf (pixOf t j)) rfl rfl,
    g1_blk m c t (ix5_1 j) (chanOf (pixOf t j)) rfl rfl,
    g2_blk m c t (ix5_2 j) (chanOf (pixOf t j)) rfl rfl]
  rfl

/-- An array index is in image `t`'s block iff each coordinate is in the block's range on its axis. -/
theorem mem_blk (t : Fin cfg0.N) (i : S16x3x512x512.Idx) :
    i ∈ ((cfg0.win 5).blk t).view.set ↔ ∀ a : Fin 4, win0_5.index t a * S1x3x512x512.size a ≤ (i a).val ∧ (i a).val < win0_5.index t a * S1x3x512x512.size a + S1x3x512x512.size a := by
  show i ∈ ((View.whole main_v3).slice (win0_5.rect t)).set ↔ _
  rw [View.set_slice_whole, Rect.mem_set_unit]
  exact Iff.rfl

/-- Every pixel is in the block of its image. -/
theorem cover (i : S16x3x512x512.Idx) : ∃ t : Fin cfg0.N, (cfg0.win 5).flush t = true ∧ i ∈ ((cfg0.win 5).blk t).view.set := by
  have hi0 : (i 0).val < 16 := (i 0).isLt
  have hi1 : (i 1).val < 3 := (i 1).isLt
  have hi2 : (i 2).val < 512 := (i 2).isLt
  have hi3 : (i 3).val < 512 := (i 3).isLt
  have hN : cfg0.N = 16 := N_0
  obtain ⟨t, ht⟩ : ∃ t : Fin cfg0.N, t.val = (i 0).val := ⟨⟨(i 0).val, by omega⟩, rfl⟩
  refine ⟨t, flush0_5 t, ?_⟩
  rw [mem_blk]
  obtain ⟨-, -, -, -, -, e0, e1, e2, e3⟩ := idx_facts t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 3 ≤ (i 1).val ∧ (i 1).val < win0_5.index t (1 : Fin 4) * 3 + 3; omega
  | ⟨2, _⟩ => show win0_5.index t (2 : Fin 4) * 512 ≤ (i 2).val ∧ (i 2).val < win0_5.index t (2 : Fin 4) * 512 + 512; omega
  | ⟨3, _⟩ => show win0_5.index t (3 : Fin 4) * 512 ≤ (i 3).val ∧ (i 3).val < win0_5.index t (3 : Fin 4) * 512 + 512; omega

/-- The result array after the run is the specification. -/
theorem final (c : Dev nD) : (dats m 0 c).arrAt 5 cfg0.N = spec m c :=
  (dats m 0 c).arrAt_eq_of_cover 5 (spec m c) (fun t _ => flushed_eq m c t) cover

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefValue.lean ====
/-
  The reference, read pixel by pixel. Its program multiplies the image stack by the colour table broadcast over the
  pixels of each (image, channel), clips between the two literal bounds, selects the exponent table by the mask, broadcast
  the same way, and raises the clipped value to the selected exponent. Read at a pixel `i`, every broadcast lands on the
  table entry of `i`'s first two coordinates, so the result is the specification's power spelling at `i`, which the scalar
  law turns into the exponential spelling.
-/
import proofs.«125441_j335007449248_2_alg».proof.Proof.Gen.ReferenceIdeal.Read
import proofs.«125441_j335007449248_2_alg».proof.Proof.Spec

noncomputable section

namespace Cert.ReferenceIdeal.RefValue

open Cert.ReferenceIdeal Cert.ReferenceIdeal.Read Idealize.ShloMosaic Cert.GammaSpec

/-- The two broadcasts that carry a [16, 3] table to the pixels read it at the pixel's (image, channel) pair. -/
theorem idx_c (i : S16x3x512x512.Idx) : idx_main_v0 (idx_main_v1 i) = chanOf i :=
  funext fun a => Fin.ext (by match a with | ⟨0, _⟩ => rfl | ⟨1, _⟩ => rfl)
theorem idx_g1 (i : S16x3x512x512.Idx) : idx_main_v6 (idx_main_call1_v0 i) = chanOf i :=
  funext fun a => Fin.ext (by match a with | ⟨0, _⟩ => rfl | ⟨1, _⟩ => rfl)
theorem idx_g2 (i : S16x3x512x512.Idx) : idx_main_v7 (idx_main_call1_v1 i) = chanOf i :=
  funext fun a => Fin.ext (by match a with | ⟨0, _⟩ => rfl | ⟨1, _⟩ => rfl)

/-- The reference's result stage is the specification: at each pixel the clipped product to the power of the selected
    exponent, which is the exponential of the exponent times the logarithm of the clipped product. -/
theorem result_eq (x0 : (⟨S16x3x512x512, .f32⟩ : BufTy).Contents (Elt Ideal)) (x1 x2 x3 : (⟨S16x3, .f32⟩ : BufTy).Contents (Elt Ideal))
    (x4 : (⟨S16x3x512x512, .i32⟩ : BufTy).Contents (Elt Ideal)) :
    val_main_v9 (F := Ideal) x0 x1 x2 x3 x4 = gammaArr x0 x1 x2 x3 x4 := by
  funext i
  rw [val_main_v9_apply, val_main_v3_apply, val_main_call0_v4_apply, val_main_call0_v3_apply, val_main_cst_0_apply,
    val_main_call0_v2_apply, val_main_call0_v1_apply, val_main_call0_v0_apply, val_main_cst_apply, val_main_v2_apply,
    val_main_v1_apply, val_main_v0_apply, val_main_v8_apply, val_main_v5_apply, val_main_v4_apply, val_main_c_apply,
    val_main_call1_v0_apply, val_main_v6_apply, val_main_call1_v1_apply, val_main_v7_apply, idx_c, idx_g1, idx_g2]
  exact pixPow_eq_pixExp (x0 i) (x3 (chanOf i)) (x1 (chanOf i)) (x2 (chanOf i)) (x4 i)

end Cert.ReferenceIdeal.RefValue

end
-- ==== Proof.lean ====
/-
  Colour correction followed by a mask-selected gamma curve, on a stack of sixteen three-channel 512 × 512 images:
  each pixel is multiplied by its channel's colour coefficient, clipped between `1e-8` and `1`, and raised to one of two
  per-channel exponents, chosen by whether the pixel's mask word is zero. The kernel works one image per grid point and
  spells the power as `exp (exponent · log value)`; the reference is the array expression with the power itself.

  The two agree at the ideal instance, where a float is an extended real, for EVERY input (the precondition is never
  opened): the clip lands between two positive finite bounds, so the base of the power is a positive real whatever the
  pixel and the coefficient were, and for a positive real base the extended-real power is the exponential of the exponent
  times the logarithm at every extended-real exponent, the infinities included (`Cert.PowLaw`). The specification
  (`Cert.GammaSpec.gammaArr`) states the result as one function of the five argument arrays; the reference's stages read at
  a pixel give it in the power spelling (`RefValue.result_eq`), and the kernel's sixteen written-back blocks, each the
  specification restricted to one image, tile the result array (`KernelValue.final`).

  The three frames are the generated ones (the reference's is its generated run with the result dropped), and the
  idealization rewrote nothing, so there is nothing to preserve.
-/
import proofs.«125441_j335007449248_2_alg».proof.Defs
import proofs.«125441_j335007449248_2_alg».proof.Proof.Gen.Kernel
import proofs.«125441_j335007449248_2_alg».proof.Proof.Gen.Kernel.Skeleton
import proofs.«125441_j335007449248_2_alg».proof.Proof.Gen.Kernel.Launch
import proofs.«125441_j335007449248_2_alg».proof.Proof.Gen.Kernel.Points
import proofs.«125441_j335007449248_2_alg».proof.Proof.Gen.Kernel.Frame
import proofs.«125441_j335007449248_2_alg».proof.Proof.Gen.KernelIdeal
import proofs.«125441_j335007449248_2_alg».proof.Proof.Gen.KernelIdeal.Skeleton
import proofs.«125441_j335007449248_2_alg».proof.Proof.Gen.KernelIdeal.Launch
import proofs.«125441_j335007449248_2_alg».proof.Proof.Gen.KernelIdeal.Points
import proofs.«125441_j335007449248_2_alg».proof.Proof.Gen.KernelIdeal.Frame
import proofs.«125441_j335007449248_2_alg».proof.Proof.Gen.ReferenceIdeal
import proofs.«125441_j335007449248_2_alg».proof.Proof.Gen.Pre_finite_inputs
import proofs.«125441_j335007449248_2_alg».proof.Proof.Gen.KernelIdeal.Value
import proofs.«125441_j335007449248_2_alg».proof.Proof.Gen.ReferenceIdeal.Run
import proofs.«125441_j335007449248_2_alg».proof.Proof.Gen.ReferenceIdeal.Read
import proofs.«125441_j335007449248_2_alg».proof.Proof.KernelValue
import proofs.«125441_j335007449248_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the specification of the
    arguments: the kernel by its blocks, the reference by its stages and the power law. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
